-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S50 : Shape := ⟨1, ![50]⟩
abbrev S128x50 : Shape := ⟨2, ![128, 50]⟩
abbrev S128 : Shape := ⟨1, ![128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S50 : S_.BroadcastsInDim S50 (![] : Fin 0 → Fin S50.rank)
  reducesTo_S50_S_d0 : S50.ReducesTo [0] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x3 .f32) (main_arg1 : IVec S2x1600000 32) (main_arg2 : FVec F S50 .f32) (main_arg3 : FVec F S50 .f32) (main_arg4 : FVec F S128x50 .f32) (main_arg5 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S50 .f32 := Host.absf main_arg2
  let main_cst_0 : FVec F S_ .f32 := constant S_ .f32 0x7F800000#32
  let main_v5 : FVec F S50 .f32 := broadcastInDim S50 ![] bcast_S_S50 main_cst_0
  let main_v6 : IVec S50 1 := cmpf .olt main_v4 main_v5
  let main_c_1 : IVec S_ 1 := constantI S_ 1 1#1
  let main_v7 : IVec S_ 1 := (fun x v => Host.reduce IntOp.andi x v reducesTo_S50_S_d0 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_v13 main_v16
-- ==== Kernel.lean ====
abbrev S100000x3 : Shape := ⟨2, ![100000, 3]⟩
abbrev S2x1600000 : Shape := ⟨2, ![2, 1600000]⟩
abbrev S50 : Shape := ⟨1, ![50]⟩
abbrev S128x50 : Shape := ⟨2, ![128, 50]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S3x1600000 : Shape := ⟨2, ![3, 1600000]⟩
abbrev S1x50 : Shape := ⟨2, ![1, 50]⟩
abbrev S50x128 : Shape := ⟨2, ![50, 128]⟩
abbrev S1x128 : Shape := ⟨2, ![1, 128]⟩
abbrev S1600000x128 : Shape := ⟨2, ![1600000, 128]⟩
abbrev S3x32000 : Shape := ⟨2, ![3, 32000]⟩
abbrev S1x32000 : Shape := ⟨2, ![1, 32000]⟩
abbrev S32000x128 : Shape := ⟨2, ![32000, 128]⟩
abbrev S32000x3 : Shape := ⟨2, ![32000, 3]⟩
abbrev S32000 : Shape := ⟨1, ![32000]⟩
abbrev S32000x1 : Shape := ⟨2, ![32000, 1]⟩
abbrev S32000x50 : Shape := ⟨2, ![32000, 50]⟩

abbrev nBuf : Space → Nat
  | .hbm => 39
  | .vmem => 12
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S50, .f32⟩
  | .hbm, ⟨3, _⟩ => ⟨S50, .f32⟩
  | .hbm, ⟨4, _⟩ => ⟨S128x50, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x3, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x3, .f32⟩
  | .hbm, ⟨28, _⟩ => ⟨S1600000x3, .f32⟩
  | .hbm, ⟨29, _⟩ => ⟨S3x1600000, .f32⟩
  | .hbm, ⟨30, _⟩ => ⟨S1x50, .f32⟩
  | .hbm, ⟨31, _⟩ => ⟨S1x50, .f32⟩
  | .hbm, ⟨32, _⟩ => ⟨S50x128, .f32⟩
  | .hbm, ⟨33, _⟩ => ⟨S1x128, .f32⟩
  | .hbm, ⟨34, _⟩ => ⟨S1x1600000, .f32⟩
  | .hbm, ⟨35, _⟩ => ⟨S1600000x128, .f32⟩
  | .hbm, ⟨36, _⟩ => ⟨S3x1600000, .f32⟩
  | .hbm, ⟨37, _⟩ => ⟨S1600000, .f32⟩
  | .hbm, ⟨38, _⟩ => ⟨S1600000x3, .f32⟩
  | .local _ .vmem, ⟨0, _⟩ => ⟨S3x32000, .f32⟩
  | .local _ .vmem, ⟨1, _⟩ => ⟨S3x32000, .f32⟩
  | .local _ .vmem, ⟨2, _⟩ => ⟨S1x50, .f32⟩
  | .local _ .vmem, ⟨3, _⟩ => ⟨S1x50, .f32⟩
  | .local _ .vmem, ⟨4, _⟩ => ⟨S50x128, .f32⟩
  | .local _ .vmem, ⟨5, _⟩ => ⟨S1x128, .f32⟩
  | .local _ .vmem, ⟨6, _⟩ => ⟨S1x32000, .f32⟩
  | .local _ .vmem, ⟨7, _⟩ => ⟨S1x32000, .f32⟩
  | .local _ .vmem, ⟨8, _⟩ => ⟨S32000x128, .f32⟩
  | .local _ .vmem, ⟨9, _⟩ => ⟨S32000x128, .f32⟩
  | .local _ .vmem, ⟨10, _⟩ => ⟨S3x32000, .f32⟩
  | .local _ .vmem, ⟨11, _⟩ => ⟨S3x32000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_v4 : Ref sig .tc := ⟨.hbm, 11, rfl⟩
abbrev main_call0_v5 : Ref sig .tc := ⟨.hbm, 12, rfl⟩
abbrev main_call0_c_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_1 : Ref sig .tc := ⟨.hbm, 19, rfl⟩
abbrev main_call0_v11 : Ref sig .tc := ⟨.hbm, 20, rfl⟩
abbrev main_call0_v12 : Ref sig .tc := ⟨.hbm, 21, rfl⟩
abbrev main_call0_c_2 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24_0 : Ref sig .tc := ⟨.hbm, 34, rfl⟩
abbrev main_v0_2 : Ref sig .tc := ⟨.hbm, 35, rfl⟩
abbrev main_call0_v24_2 : Ref sig .tc := ⟨.hbm, 36, rfl⟩
abbrev main_v0_1 : Ref sig .tc := ⟨.hbm, 37, rfl⟩
abbrev main_v0_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x32000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S1600000x3_S3x1600000_1_0 : S1600000x3.Transposes [1, 0] S3x1600000
  shapeCasts_S50_S1x50 : S50.ShapeCasts S1x50
  transposes_S128x50_S50x128_1_0 : S128x50.Transposes [1, 0] S50x128
  shapeCasts_S128_S1x128 : S128.ShapeCasts S1x128
  transposes_S3x1600000_S1600000x3_1_0 : S3x1600000.Transposes [1, 0] S1600000x3
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  transposes_S3x32000_p1_0_S32000x3 : S3x32000.Transposes [1, 0] S32000x3
  reduces_S32000x3_S32000 : S32000x3.Reduces [1] S32000
  shapeCasts_S32000_S32000x1 : S32000.ShapeCasts S32000x1
  natLt_1_32 : 1 < 32
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S32000x1_S32000x50 : S32000x1.Broadcasts S32000x50
  broadcasts_S1x50_S32000x50 : S1x50.Broadcasts S32000x50
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32000x128 : S1x128.Broadcasts S32000x128
  broadcasts_S32000x1_S32000x3 : S32000x1.Broadcasts S32000x3
  transposes_S32000x1_p1_0_S1x32000 : S32000x1.Transposes [1, 0] S1x32000
  inb_S1x32000_S1x32000_0_0 : ∀ a, (![0, 0] : Fin 2 → Nat) a + S1x32000.size a ≤ S1x32000.size a
  h_S1x32000 : 0 < S1x32000.numel
  inb_S32000x128_S32000x128_0_0 : ∀ a, (![0, 0] : Fin 2 → Nat) a + S32000x128.size a ≤ S32000x128.size a
  h_S32000x128 : 0 < S32000x128.numel
  transposes_S32000x3_p1_0_S3x32000 : S32000x3.Transposes [1, 0] S3x32000
  gather_S100000x3_S1600000x1_S1600000x3_1_0_n_n_0_1_13_wf : GatherDims.WF S100000x3 S1600000x1 S1600000x3 [1] [0] [] [0] [] 1 ![1, 3]
  dot_S32000x50_S50x128_S32000x128_1_0_0_1_n_n_wf : DotDims.WF S32000x50 S50x128 S32000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x1600000.size a
  hwx0_0 : ∀ i : grid0.Coords, EltTy.bits .f32 = 32 ∨ (Rect.block (s := S3x1600000) S3x32000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x50.size a ≤ S1x50.size a
  hwx0_1 : ∀ i : grid0.Coords, EltTy.bits .f32 = 32 ∨ (Rect.block (s := S1x50) S1x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x128.size a ≤ S50x128.size a
  hwx0_3 : ∀ i : grid0.Coords, EltTy.bits .f32 = 32 ∨ (Rect.block (s := S50x128) S50x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32000.size a ≤ S1x1600000.size a
  hwx0_5 : ∀ i : grid0.Coords, EltTy.bits .f32 = 32 ∨ (Rect.block (s := S1x1600000) S1x32000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32000x128.size a ≤ S1600000x128.size a
  hwx0_6 : ∀ i : grid0.Coords, EltTy.bits .f32 = 32 ∨ (Rect.block (s := S1600000x128) S32000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x32000.size a ≤ S3x1600000.size a
  hwx0_7 : ∀ i : grid0.Coords, EltTy.bits .f32 = 32 ∨ (Rect.block (s := S3x1600000) S3x32000.size (cc0_transform_7 i) (hinb0_7 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S32000x50_S50x128_S32000x128_1_0_0_1_n_n : DotDims S32000x50 S50x128 S32000x128 where
  lhsContracting := [1]
  rhsContracting := [0]
  lhsNonContracting := [0]
  rhsNonContracting := [1]
  lhsBatch := []
  rhsBatch := []
  wf := dot_S32000x50_S50x128_S32000x128_1_0_0_1_n_n_wf

abbrev win0_0 : Pipeline.Window sig grid0 :=
  Pipeline.Window.ofSpec (Memref.whole main_call0_v19) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v20) S1x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v22) S50x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v24_0) S1x32000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S32000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v24_2) S3x32000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S50 : Shape := ⟨1, ![50]⟩
abbrev S128x50 : Shape := ⟨2, ![128, 50]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1x50 : Shape := ⟨2, ![1, 50]⟩
abbrev S1600000x50 : Shape := ⟨2, ![1600000, 50]⟩
abbrev S50x128 : Shape := ⟨2, ![50, 128]⟩
abbrev S1600000x128 : Shape := ⟨2, ![1600000, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S50, .f32⟩
  | .hbm, ⟨3, _⟩ => ⟨S50, .f32⟩
  | .hbm, ⟨4, _⟩ => ⟨S128x50, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x3, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x3, .f32⟩
  | .hbm, ⟨28, _⟩ => ⟨S1600000x3, .f32⟩
  | .hbm, ⟨29, _⟩ => ⟨S1600000x3, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S1600000x1, .f32⟩
  | .hbm, ⟨34, _⟩ => ⟨S_, .f32⟩
  | .hbm, ⟨35, _⟩ => ⟨S1600000x1, .f32⟩
  | .hbm, ⟨36, _⟩ => ⟨S1600000x1, .f32⟩
  | .hbm, ⟨37, _⟩ => ⟨S_, .f32⟩
  | .hbm, ⟨38, _⟩ => ⟨S1600000x1, .f32⟩
  | .hbm, ⟨39, _⟩ => ⟨S1600000x1, .f32⟩
  | .hbm, ⟨40, _⟩ => ⟨S1600000x1, .f32⟩
  | .hbm, ⟨41, _⟩ => ⟨S_, .f32⟩
  | .hbm, ⟨42, _⟩ => ⟨S1600000x1, .f32⟩
  | .hbm, ⟨43, _⟩ => ⟨S1600000x1, .f32⟩
  | .hbm, ⟨44, _⟩ => ⟨S_, .f32⟩
  | .hbm, ⟨45, _⟩ => ⟨S1600000x1, .f32⟩
  | .hbm, ⟨46, _⟩ => ⟨S1600000x1, .f32⟩
  | .hbm, ⟨47, _⟩ => ⟨S_, .f32⟩
  | .hbm, ⟨48, _⟩ => ⟨S1600000x1, .f32⟩
  | .hbm, ⟨49, _⟩ => ⟨S1600000x1, .i1⟩
  | .hbm, ⟨50, _⟩ => ⟨S1600000x1, .f32⟩
  | .hbm, ⟨51, _⟩ => ⟨S1600000x1, .f32⟩
  | .hbm, ⟨52, _⟩ => ⟨S50, .f32⟩
  | .hbm, ⟨53, _⟩ => ⟨S_, .f32⟩
  | .hbm, ⟨54, _⟩ => ⟨S1600000x1, .f32⟩
  | .hbm, ⟨55, _⟩ => ⟨S1600000x1, .f32⟩
  | .hbm, ⟨56, _⟩ => ⟨S_, .f32⟩
  | .hbm, ⟨57, _⟩ => ⟨S1600000x1, .f32⟩
  | .hbm, ⟨58, _⟩ => ⟨S1600000x1, .f32⟩
  | .hbm, ⟨59, _⟩ => ⟨S1600000x1, .f32⟩
  | .hbm, ⟨60, _⟩ => ⟨S1x50, .f32⟩
  | .hbm, ⟨61, _⟩ => ⟨S1600000x50, .f32⟩
  | .hbm, ⟨62, _⟩ => ⟨S1600000x50, .f32⟩
  | .hbm, ⟨63, _⟩ => ⟨S1600000x50, .f32⟩
  | .hbm, ⟨64, _⟩ => ⟨S1600000x50, .f32⟩
  | .hbm, ⟨65, _⟩ => ⟨S1x50, .f32⟩
  | .hbm, ⟨66, _⟩ => ⟨S1600000x50, .f32⟩
  | .hbm, ⟨67, _⟩ => ⟨S1600000x50, .f32⟩
  | .hbm, ⟨68, _⟩ => ⟨S1600000x50, .f32⟩
  | .hbm, ⟨69, _⟩ => ⟨S1600000x50, .f32⟩
  | .hbm, ⟨70, _⟩ => ⟨S1600000x50, .f32⟩
  | .hbm, ⟨71, _⟩ => ⟨S1600000x3, .f32⟩
  | .hbm, ⟨72, _⟩ => ⟨S_, .f32⟩
  | .hbm, ⟨73, _⟩ => ⟨S1600000, .f32⟩
  | .hbm, ⟨74, _⟩ => ⟨S1600000x1, .f32⟩
  | .hbm, ⟨75, _⟩ => ⟨S1600000x1, .f32⟩
  | .hbm, ⟨76, _⟩ => ⟨S1600000x3, .f32⟩
  | .hbm, ⟨77, _⟩ => ⟨S1600000x3, .f32⟩
  | .hbm, ⟨78, _⟩ => ⟨S50x128, .f32⟩
  | .hbm, ⟨79, _⟩ => ⟨S1600000x128, .f32⟩
  | .hbm, ⟨80, _⟩ => ⟨S1x128, .f32⟩
  | .hbm, ⟨81, _⟩ => ⟨S1600000x128, .f32⟩
  | .hbm, ⟨82, _⟩ => ⟨S1600000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_v0 : Ref sig .tc := ⟨.hbm, 71, rfl⟩
abbrev main_call1_cst : Ref sig .tc := ⟨.hbm, 72, rfl⟩
abbrev main_call1_v1 : Ref sig .tc := ⟨.hbm, 73, rfl⟩
abbrev main_call1_v2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S50_S1x50_1 : S50.BroadcastsInDim S1x50 (![1] : Fin 1 → Fin S1x50.rank)
  bcast_S1600000x1_S1600000x50_0_1 : S1600000x1.BroadcastsInDim S1600000x50 (![0, 1] : Fin 2 → Fin S1600000x50.rank)
  bcast_S1x50_S1600000x50_0_1 : S1x50.BroadcastsInDim S1600000x50 (![0, 1] : Fin 2 → Fin S1600000x50.rank)
  bcast_S1600000x1_S1600000x3_0_1 : S1600000x1.BroadcastsInDim S1600000x3 (![0, 1] : Fin 2 → Fin S1600000x3.rank)
  transposes_S128x50_S50x128_1_0 : S128x50.Transposes [1, 0] S50x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  gather_S100000x3_S1600000x1_S1600000x3_1_0_n_n_0_1_13_wf : GatherDims.WF S100000x3 S1600000x1 S1600000x3 [1] [0] [] [0] [] 1 ![1, 3]
  dot_S1600000x50_S50x128_S1600000x128_1_0_0_1_n_n_wf : DotDims.WF S1600000x50 S50x128 S1600000x128 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf

class Facts : Prop extends Facts₀ where

variable [Facts]
-- ==== Proof.Spec.lean ====
/-
  Edge features of a graph of points, one edge at a time.

  An edge carries the difference vector `v` of its two end points (three coordinates). From it:

  * its length `d = √(v₀² + v₁² + v₂²)`;
  * a cosine window `½ · (cos(d·π/5) + 1)`, switched off (multiplied by the 0/1 flag of `d < 5`) beyond the cutoff 5;
  * fifty radial basis values `window(d) · exp(-βₖ · (e^{1·(0 - d)} - μₖ)²)`, one per centre `μₖ` with width `βₖ`;
  * 128 features, an affine image of the fifty basis values: `Σₖ basisₖ · w(k, h) + bias(h)`;
  * the unit direction `v / d`.

  All of it is read on the extended reals, where every operation is total. The constants are kept as the binary
  words they are written with, since both programs spell them with the same words. The one algebraic fact recorded here
  is that the exponent of a basis value may be grouped either way: `((0 - β) · δ) · δ = (-β) · (δ · δ)`, since
  the zero word denotes zero and multiplication of extended reals is associative; no finiteness is needed.
-/
import Idealize.ShloMosaic.PureOps.Ideal
import Idealize.ShloMosaic.PureOps.Ideal.Laws

open scoped BigOperators

noncomputable section

namespace Cert.EdgeFeat

open Idealize.ShloMosaic

/-- The Euclidean length of a three-vector. -/
def length (v : Fin 3 → EReal) : EReal := Ideal.sqrt (∑ k : Fin 3, v k * v k)

/-- The 0/1 value of a one-bit flag. -/
def flag (b : BitVec 1) : EReal := ((b.toNat : ℝ) : EReal)

/-- The cosine window at distance `d`, zero from the cutoff on. -/
def window (d : EReal) : EReal :=
  Ideal.ofBits .f32 0x3F000000#32
      * (Ideal.cos (Ideal.div (d * Ideal.ofBits .f32 0x40490FDB#32) (Ideal.ofBits .f32 0x40A00000#32)) + Ideal.ofBits .f32 0x3F800000#32)
    * flag (Ideal.cmp .olt d (Ideal.ofBits .f32 0x40A00000#32))

/-- The exponential decay `e^{1·(0 - d)}` of the distance. -/
def decay (d : EReal) : EReal := Ideal.exp (Ideal.ofBits .f32 0x3F800000#32 * (Ideal.ofBits .f32 0x00000000#32 - d))

/-- The `k`-th radial basis value at distance `d`: centres `mu`, widths `be`. -/
def basis (mu be : Fin 50 → EReal) (d : EReal) (k : Fin 50) : EReal :=
  window d * Ideal.exp (-(be k) * ((decay d - mu k) * (decay d - mu k)))

/-- The same value with the exponent grouped from the left and the negation written as a difference from the zero word. -/
def basisLeft (mu be : Fin 50 → EReal) (d : EReal) (k : Fin 50) : EReal :=
  window d * Ideal.exp (((Ideal.ofBits .f32 0x00000000#32 - be k) * (decay d - mu k)) * (decay d - mu k))

/-- The two groupings agree on all extended reals. -/
theorem basisLeft_eq (mu be : Fin 50 → EReal) (d : EReal) (k : Fin 50) : basisLeft mu be d k = basis mu be d k := by
  unfold basisLeft basis
  rw [Ideal.ofBits_zero_f32, zero_sub, mul_assoc]

/-- The `h`-th feature: the basis values against column `h` of the weights, plus the bias. -/
def feature (mu be : Fin 50 → EReal) (w : Fin 50 → Fin 128 → EReal) (bias : Fin 128 → EReal) (d : EReal) (h : Fin 128) : EReal :=
  (∑ k : Fin 50, basis mu be d k * w k h) + bias h

/-- The `k`-th coordinate of the unit direction of `v`. -/
def direction (v : Fin 3 → EReal) (k : Fin 3) : EReal := Ideal.div (v k) (length v)

/-- A one-bit flag widened to 32 bits and read as a signed integer is still 0 or 1. -/
theorem flag_signed (b : BitVec 1) : (((b.setWidth 32).toInt : ℝ) : EReal) = flag b := by
  unfold flag
  have h : ∀ b : BitVec 1, (b.setWidth 32).toInt = (b.toNat : ℤ) := by decide
  rw [h b]
  norm_cast

end Cert.EdgeFeat

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.KernelPoint.lean ====
/-
  One block of 32000 edges: what the body computes, entry by entry.

  The block of edge vectors arrives transposed, three rows of 32000 coordinates; row `r` of the block's edges is the
  column `r` of that array. Every value the body stores is read here at one index, as a function of the entries of the
  loaded blocks it depends on: an edge's length and direction depend on its own three coordinates only, its fifty
  basis values on its length and the centres and widths, and its 128 features on its basis values, one column of the
  weights and one bias entry. A lane sum over the three coordinates is a sum over `Fin 3`; a matrix product into a zero
  accumulator is a sum over `Fin 50`.
-/
import proofs.«113944_j15607911153855_2_alg».proof.Proof.Gen.KernelIdeal.Skeleton
import proofs.«113944_j15607911153855_2_alg».proof.Proof.Spec
import proofs.«113944_j15607911153855_2_alg».proof.Proof.LibColumnLayout
import proofs.«113944_j15607911153855_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.EdgeFeat.Block

open Idealize.ShloMosaic Idealize.ShloMosaic.ValueIdx Cert.KernelIdeal Cert.KernelIdeal.Gen Cert.EdgeFeat

/-- A square root, a cosine and an exponential of a vector act entry by entry. -/
theorem sqrt_apply {s : Shape} (a : FVec Ideal s .f32) (i : s.Idx) : sqrt a i = Ideal.sqrt (a i) := rfl
theorem cos_apply {s : Shape} (a : FVec Ideal s .f32) (i : s.Idx) : cos a i = Ideal.cos (a i) := rfl
theorem exp_apply {s : Shape} (a : FVec Ideal s .f32) (i : s.Idx) : exp a i = Ideal.exp (a i) := rfl

/-- The three coordinates of edge `r` of a block stored as three rows. -/
def row (x0 : FVec Ideal S3x32000 .f32) (r : Fin 32000) : Fin 3 → EReal := fun k => x0 (ix2 k r)

/-- The block transposed back: entry `(r, k)` is coordinate `k` of edge `r`. -/
theorem edges_apply (x0 : FVec Ideal S3x32000 .f32) (r : Fin 32000) (k : Fin 3) :
    k0_pay4 (F := Ideal) x0 (ix2 r k) = row x0 r k := by
  unfold k0_pay4
  dsimp only
  rw [shapeCast_self]
  exact transpose_ix2_apply x0 _ r k

/-- A lane sum over the three coordinates of an edge, read at that edge. -/
theorem laneSum_apply (y : FVec Ideal S32000x3 .f32) (hφ : FKind.Formats .f32)
    (hacc : (0x00000000#32 : BitVec 32) = 0x00000000#32) (r : Fin 32000) :
    multiReduction .add [1] S32000 y 0x00000000#32 reduces_S32000x3_S32000 hφ hacc (ix1 r) = ∑ k : Fin 3, y (ix2 r k) := by
  refine (Ideal.multiReduction_add_single y 0x00000000#32 reduces_S32000x3_S32000 hφ hacc (ix1 r)).trans ?_
  refine Finset.sum_congr rfl fun k _ => congrArg y ?_
  exact funext fun a => Fin.ext (by match a with | ⟨0, _⟩ => rfl | ⟨1, _⟩ => rfl)

/-- The length column: entry `(r, 0)` is the length of edge `r`. -/
theorem length_apply (x0 : FVec Ideal S3x32000 .f32) (r : Fin 32000) (u : Fin 1) :
    k0_pay5 (F := Ideal) x0 (ix2 r u) = length (row x0 r) := by
  unfold k0_pay5
  dsimp only
  rw [sqrt_apply, Cert.ColumnLayout.shapeCast_a_a1_apply, laneSum_apply]
  unfold length
  refine congrArg Ideal.sqrt (Finset.sum_congr rfl fun k _ => ?_)
  rw [mulf_apply, edges_apply]

/-- The stored length row: entry `(0, r)` is the length column's entry `(r, 0)`. -/
theorem lengthRow_apply (v6 : FVec Ideal S32000x1 .f32) (u : Fin 1) (r : Fin 32000) :
    k0_pay2 (F := Ideal) v6 (ix2 u r) = v6 (ix2 r u) := by
  unfold k0_pay2
  dsimp only
  exact transpose_ix2_apply v6 _ u r

/-- The stored directions: entry `(k, r)` is coordinate `k` of edge `r` over that edge's length. -/
theorem direction_apply (v2 : FVec Ideal S32000x3 .f32) (v6 : FVec Ideal S32000x1 .f32) (k : Fin 3) (r : Fin 32000) :
    k0_pay3 (F := Ideal) v2 v6 (ix2 k r) = Ideal.div (v2 (ix2 r k)) (v6 (ix2 r (0 : Fin 1))) := by
  unfold k0_pay3
  dsimp only
  rw [transpose_ix2_apply, divf_apply, Cert.ColumnLayout.broadcastTo_a1_ab_apply]

/-- The basis values: entry `(r, k)` is the `k`-th basis value at the length of edge `r`, with the exponent grouped
    from the left; the centres and widths are the one row of their blocks. -/
theorem basis_apply (v0 : FVec Ideal S3x32000 .f32) (v21 v23 : FVec Ideal S1x50 .f32) (r : Fin 32000) (k : Fin 50) :
    k0_pay6 (F := Ideal) v0 v21 v23 (ix2 r k)
      = basisLeft (fun k => v21 (ix2 (0 : Fin 1) k)) (fun k => v23 (ix2 (0 : Fin 1) k)) (length (row v0 r)) k := by
  unfold k0_pay6
  simp only [mulf_apply, subf_apply, addf_apply, divf_apply, broadcast_apply, cos_apply, exp_apply, cmpf_apply, extui_apply,
    sitofp_apply, Cert.ColumnLayout.broadcastTo_a1_ab_apply, broadcastTo_1b_ab_apply, shapeCast_self, length_apply]
  unfold basisLeft window decay
  rw [← flag_signed]
  rfl

/-- The features: entry `(r, h)` is the sum over the fifty basis values of row `r` against column `h` of the weights,
    plus the bias entry `h`. -/
theorem feature_apply (v40 : FVec Ideal S32000x50 .f32) (v41 : FVec Ideal S50x128 .f32) (v44 : FVec Ideal S1x128 .f32)
    (r : Fin 32000) (h : Fin 128) :
    k0_pay1 (F := Ideal) v40 v41 v44 (ix2 r h) = (∑ k : Fin 50, v40 (ix2 r k) * v41 (ix2 k h)) + v44 (ix2 (0 : Fin 1) h) := by
  unfold k0_pay1
  rw [addf_apply, broadcastTo_1b_ab_apply, shapeCast_self, shapeCast_self]
  refine congrArg (· + _) ?_
  refine (Ideal.matmul_constant_zero_apply dot_S32000x50_S50x128_S32000x128_1_0_0_1_n_n none v40 v41 (ix2 r h)).trans ?_
  exact Cert.PlainDot.sum_eq dot_S32000x50_S50x128_S32000x128_1_0_0_1_n_n rfl rfl rfl rfl rfl rfl rfl rfl v40 v41 r h

end Cert.EdgeFeat.Block

end
-- ==== Proof.KernelBlocks.lean ====
/-
  From the blocks of the fifty grid points to whole arrays.

  The 1 600 000 edges are cut into fifty consecutive blocks of 32 000. Grid point `t` reads columns
  `32000·t … 32000·t + 31999` of the transposed edge array (three rows), reads the centres, the widths, the weights
  and the bias whole, and writes back: columns `32000·t …` of the one-row length array, rows `32000·t …` of the feature
  array, and columns `32000·t …` of the three-row direction array. Each of the three outputs is therefore ONE function
  of the arrays the region reads, index by index: every edge sits in exactly the block `e / 32000`, and what that
  block's point computes for it depends on the edge's own column only.
-/
import proofs.«113944_j15607911153855_2_alg».proof.Proof.KernelPoint
import Idealize.ShloMosaic.Lib.Pipeline.Value

open scoped BigOperators

noncomputable section

namespace Cert.EdgeFeat.Arrays

open Idealize.ShloMosaic Idealize.ShloMosaic.TcCoe Idealize.ShloMosaic.ValueIdx Idealize.SL.Sem
open Idealize.ShloMosaic.Pipeline (Dat)
open Cert.KernelIdeal Cert.KernelIdeal.Gen Cert.EdgeFeat Cert.EdgeFeat.Block

/-! ## The three outputs as functions of the arrays the region reads -/

/-- The three coordinates of edge `e` in the transposed edge array. -/
def edgeRow (X : S3x1600000.Idx → EReal) (e : Fin 1600000) : Fin 3 → EReal := fun k => X (ix2 k e)

/-- The one-row array of lengths. -/
def lengthsT (X : S3x1600000.Idx → EReal) : S1x1600000.Idx → EReal :=
  fun i => length (edgeRow X ⟨(i 1).val, (i 1).isLt⟩)

/-- The feature array: row `e` holds the 128 features of edge `e`. -/
def featuresA (X : S3x1600000.Idx → EReal) (MU BE : S1x50.Idx → EReal) (WT : S50x128.Idx → EReal) (B1 : S1x128.Idx → EReal) :
    S1600000x128.Idx → EReal :=
  fun i => feature (fun k => MU (ix2 (0 : Fin 1) k)) (fun k => BE (ix2 (0 : Fin 1) k)) (fun k h => WT (ix2 k h))
    (fun h => B1 (ix2 (0 : Fin 1) h)) (length (edgeRow X ⟨(i 0).val, (i 0).isLt⟩)) ⟨(i 1).val, (i 1).isLt⟩

/-- The three-row array of unit directions. -/
def directionsT (X : S3x1600000.Idx → EReal) : S3x1600000.Idx → EReal :=
  fun i => direction (edgeRow X ⟨(i 1).val, (i 1).isLt⟩) ⟨(i 0).val, (i 0).isLt⟩

/-! ## One block, over variables -/

/-- `x0` is block `T` of the transposed edge array: its column `r` is the array's column `32000·T + r`. -/
def IsEdgeBlock (X : S3x1600000.Idx → EReal) (T : ℕ) (x0 : FVec Ideal S3x32000 .f32) : Prop :=
  ∀ (k : Fin 3) (r : Fin 32000) (e : Fin 1600000), e.val = T * 32000 + r.val → x0 (ix2 k r) = X (ix2 k e)

theorem row_of_block {X : S3x1600000.Idx → EReal} {T : ℕ} {x0 : FVec Ideal S3x32000 .f32} (hx : IsEdgeBlock X T x0)
    (r : Fin 32000) (e : Fin 1600000) (he : e.val = T * 32000 + r.val) : row x0 r = edgeRow X e :=
  funext fun k => hx k r e he

/-- The stored length row of block `T` is the matching stretch of `lengthsT`. -/
theorem lengths_block (X : S3x1600000.Idx → EReal) (T : ℕ) (x0 : FVec Ideal S3x32000 .f32) (hx : IsEdgeBlock X T x0)
    (y : S1x32000.Idx) (i : S1x1600000.Idx) (hi : (i 1).val = T * 32000 + (y 1).val) :
    k0_pay2 (F := Ideal) (k0_pay5 x0) y = lengthsT X i := by
  obtain ⟨u, r, rfl⟩ : ∃ (u : Fin 1) (r : Fin 32000), y = ix2 u r := ⟨y 0, y 1, eq_ix2 y⟩
  rw [lengthRow_apply, length_apply]
  unfold lengthsT
  exact congrArg length (row_of_block hx r ⟨(i 1).val, (i 1).isLt⟩ hi)

/-- The stored feature rows of block `T` are the matching rows of `featuresA`. -/
theorem features_block (X : S3x1600000.Idx → EReal) (MU BE : S1x50.Idx → EReal) (WT : S50x128.Idx → EReal) (B1 : S1x128.Idx → EReal)
    (T : ℕ) (x0 : FVec Ideal S3x32000 .f32) (hx : IsEdgeBlock X T x0)
    (y : S32000x128.Idx) (i : S1600000x128.Idx) (hi0 : (i 0).val = T * 32000 + (y 0).val) (hi1 : (i 1).val = (y 1).val) :
    k0_pay1 (F := Ideal) (k0_pay6 x0 MU BE) WT B1 y = featuresA X MU BE WT B1 i := by
  obtain ⟨r, h, rfl⟩ : ∃ (r : Fin 32000) (h : Fin 128), y = ix2 r h := ⟨y 0, y 1, eq_ix2 y⟩
  rw [feature_apply]
  unfold featuresA feature
  have hh : (⟨(i 1).val, (i 1).isLt⟩ : Fin 128) = h := Fin.ext hi1
  rw [hh, ← row_of_block hx r ⟨(i 0).val, (i 0).isLt⟩ hi0]
  refine congrArg (· + _) (Finset.sum_congr rfl fun k _ => ?_)
  rw [basis_apply, basisLeft_eq]

/-- The stored direction columns of block `T` are the matching columns of `directionsT`. -/
theorem directions_block (X : S3x1600000.Idx → EReal) (T : ℕ) (x0 : FVec Ideal S3x32000 .f32) (hx : IsEdgeBlock X T x0)
    (y : S3x32000.Idx) (i : S3x1600000.Idx) (hi0 : (i 0).val = (y 0).val) (hi1 : (i 1).val = T * 32000 + (y 1).val) :
    k0_pay3 (F := Ideal) (k0_pay4 x0) (k0_pay5 x0) y = directionsT X i := by
  obtain ⟨k, r, rfl⟩ : ∃ (k : Fin 3) (r : Fin 32000), y = ix2 k r := ⟨y 0, y 1, eq_ix2 y⟩
  rw [direction_apply, edges_apply, length_apply]
  unfold directionsT direction
  have hk : (⟨(i 0).val, (i 0).isLt⟩ : Fin 3) = k := Fin.ext hi0
  rw [hk, ← row_of_block hx r ⟨(i 1).val, (i 1).isLt⟩ hi1]

end Cert.EdgeFeat.Arrays

end
-- ==== Proof.KernelArrays.lean ====
/-
  The arrays the region leaves.

  Grid point `t` of fifty reads block `t` of the transposed edge array (block index `(0, t)`: all three rows, columns
  `32000·t …`), reads the four small operands whole (block index `(0, 0)`), and writes back block `(0, t)` of the
  length row, block `(t, 0)` of the feature array and block `(0, t)` of the direction rows. These relations between
  the index maps are decided once over the fifty points. Every index of an output array lies in the block of the point
  `e / 32000`, `e` its edge coordinate, so the blocks cover each array and the array after the region is the
  whole-array function of the previous module.
-/
import proofs.«113944_j15607911153855_2_alg».proof.Proof.Gen.KernelIdeal.Frame
import proofs.«113944_j15607911153855_2_alg».proof.Proof.KernelBlocks
import Idealize.ShloMosaic.Lib.Pipeline.Value

noncomputable section

namespace Cert.EdgeFeat.Arrays

open Idealize.ShloMosaic Idealize.ShloMosaic.TcCoe Idealize.ShloMosaic.ValueIdx Idealize.SL.Sem
open Idealize.ShloMosaic.Pipeline (Dat)
open Cert.KernelIdeal Cert.KernelIdeal.Gen Cert.EdgeFeat Cert.EdgeFeat.Block

variable (m : (ℓ : Loc nD τ sig) → Buf (Elt Ideal) ℓ)

theorem hz : (![0, 0] : Fin 2 → Nat) = fun _ => 0 := funext fun a => by fin_cases a <;> rfl

/-- The printed index maps over the grid: the edge array and the three outputs move with the point along their edge
    axis, the four small operands stay at block zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = t.val ∧ win0_6.index t (1 : Fin 2) = 0
    ∧ win0_7.index t (0 : Fin 2) = 0 ∧ win0_7.index t (1 : Fin 2) = t.val :=
  (by decide +kernel : ∀ t : Fin grid0.N, _)

/-! ## The input blocks -/

/-- Point `t`'s block of the edge array is block `t` of it. -/
theorem edge_block (c : Dev nD) (t : Fin cfg0.N) :
    IsEdgeBlock (V m c main_call0_v19) t.val (iblk m c 0 t) := by
  intro k r e he
  obtain ⟨h0, h1, -⟩ := idx_facts t
  unfold iblk
  rw [View.read_apply]
  show V m c main_call0_v19 _ = V m c main_call0_v19 _
  refine congrArg _ (funext fun a => Fin.ext ?_)
  match a with
  | ⟨0, _⟩ => show win0_0.index t (0 : Fin 2) * 3 + 1 * k.val = k.val; rw [h0]; omega
  | ⟨1, _⟩ => show win0_0.index t (1 : Fin 2) * 32000 + 1 * r.val = e.val; rw [h1, he]; omega

/-- The centres' block at any point is the whole one-row array. -/
theorem centres_block (c : Dev nD) (t : Fin cfg0.N) : (iblk m c 1 t : FVec Ideal S1x50 .f32) = V m c main_call0_v20 := by
  funext y
  obtain ⟨-, -, h0, h1, -⟩ := idx_facts t
  unfold iblk
  rw [View.read_apply]
  show V m c main_call0_v20 _ = V m c main_call0_v20 y
  refine congrArg _ (funext fun a => Fin.ext ?_)
  match a with
  | ⟨0, _⟩ => show win0_1.index t (0 : Fin 2) * 1 + 1 * (y 0).val = (y 0).val; rw [h0]; omega
  | ⟨1, _⟩ => show win0_1.index t (1 : Fin 2) * 50 + 1 * (y 1).val = (y 1).val; rw [h1]; omega

/-- The widths' block at any point is the whole one-row array. -/
theorem widths_block (c : Dev nD) (t : Fin cfg0.N) : (iblk m c 2 t : FVec Ideal S1x50 .f32) = V m c main_call0_v21 := by
  funext y
  obtain ⟨-, -, -, -, h0, h1, -⟩ := idx_facts t
  unfold iblk
  rw [View.read_apply]
  show V m c main_call0_v21 _ = V m c main_call0_v21 y
  refine congrArg _ (funext fun a => Fin.ext ?_)
  match a with
  | ⟨0, _⟩ => show win0_2.index t (0 : Fin 2) * 1 + 1 * (y 0).val = (y 0).val; rw [h0]; omega
  | ⟨1, _⟩ => show win0_2.index t (1 : Fin 2) * 50 + 1 * (y 1).val = (y 1).val; rw [h1]; omega

/-- The weights' block at any point is the whole array. -/
theorem weights_block (c : Dev nD) (t : Fin cfg0.N) : (iblk m c 3 t : FVec Ideal S50x128 .f32) = V m c main_call0_v22 := by
  funext y
  obtain ⟨-, -, -, -, -, -, h0, h1, -⟩ := idx_facts t
  unfold iblk
  rw [View.read_apply]
  show V m c main_call0_v22 _ = V m c main_call0_v22 y
  refine congrArg _ (funext fun a => Fin.ext ?_)
  match a with
  | ⟨0, _⟩ => show win0_3.index t (0 : Fin 2) * 50 + 1 * (y 0).val = (y 0).val; rw [h0]; omega
  | ⟨1, _⟩ => show win0_3.index t (1 : Fin 2) * 128 + 1 * (y 1).val = (y 1).val; rw [h1]; omega

/-- The bias block at any point is the whole one-row array. -/
theorem bias_block (c : Dev nD) (t : Fin cfg0.N) : (iblk m c 4 t : FVec Ideal S1x128 .f32) = V m c main_call0_v23 := by
  funext y
  obtain ⟨-, -, -, -, -, -, -, -, h0, h1, -⟩ := idx_facts t
  unfold iblk
  rw [View.read_apply]
  show V m c main_call0_v23 _ = V m c main_call0_v23 y
  refine congrArg _ (funext fun a => Fin.ext ?_)
  match a with
  | ⟨0, _⟩ => show win0_4.index t (0 : Fin 2) * 1 + 1 * (y 0).val = (y 0).val; rw [h0]; omega
  | ⟨1, _⟩ => show win0_4.index t (1 : Fin 2) * 128 + 1 * (y 1).val = (y 1).val; rw [h1]; omega

/-! ## What each point writes back -/

/-- Point `t` writes back block `t` of the length row. -/
theorem flushed_lengths (c : Dev nD) (t : Fin cfg0.N) :
    (dats m 0 c).flushed 5 t = ((cfg0.win 5).blk t).view.read (Elt Ideal) (lengthsT (V m c main_call0_v19)) := by
  show (cfg0.win 5).cut (grid0.coords t) ((dats m 0 c).after 5 t) = _
  rw [after0_5]
  unfold out0_5
  rw [View.canon_unit_zero hz]
  simp only [View.ld_unit_zero (S := S3x32000) hz]
  obtain ⟨-, -, -, -, -, -, -, -, -, -, h0, h1, -⟩ := idx_facts t
  funext y
  rw [View.read_apply]
  refine lengths_block _ t.val _ (edge_block m c t) _ _ ?_
  show win0_5.index t (1 : Fin 2) * 32000 + 1 * (y 1).val = t.val * 32000 + (y 1).val
  rw [h1]; omega

/-- Point `t` writes back block `t` of the feature rows. -/
theorem flushed_features (c : Dev nD) (t : Fin cfg0.N) :
    (dats m 0 c).flushed 6 t = ((cfg0.win 6).blk t).view.read (Elt Ideal)
      (featuresA (V m c main_call0_v19) (V m c main_call0_v20) (V m c main_call0_v21) (V m c main_call0_v22) (V m c main_call0_v23)) := by
  show (cfg0.win 6).cut (grid0.coords t) ((dats m 0 c).after 6 t) = _
  rw [after0_6, centres_block, widths_block, weights_block, bias_block]
  unfold out0_6
  rw [View.canon_unit_zero hz]
  simp only [View.ld_unit_zero (S := S3x32000) hz, View.ld_unit_zero (S := S1x50) hz, View.ld_unit_zero (S := S50x128) hz,
    View.ld_unit_zero (S := S1x128) hz]
  obtain ⟨-, -, -, -, -, -, -, -, -, -, -, -, h0, h1, -⟩ := idx_facts t
  funext y
  rw [View.read_apply]
  refine features_block _ _ _ _ _ t.val _ (edge_block m c t) _ _ ?_ ?_
  · show win0_6.index t (0 : Fin 2) * 32000 + 1 * (y 0).val = t.val * 32000 + (y 0).val
    rw [h0]; omega
  · show win0_6.index t (1 : Fin 2) * 128 + 1 * (y 1).val = (y 1).val
    rw [h1]; omega

/-- Point `t` writes back block `t` of the direction rows. -/
theorem flushed_directions (c : Dev nD) (t : Fin cfg0.N) :
    (dats m 0 c).flushed 7 t = ((cfg0.win 7).blk t).view.read (Elt Ideal) (directionsT (V m c main_call0_v19)) := by
  show (cfg0.win 7).cut (grid0.coords t) ((dats m 0 c).after 7 t) = _
  rw [after0_7]
  unfold out0_7
  rw [View.canon_unit_zero hz]
  simp only [View.ld_unit_zero (S := S3x32000) hz]
  obtain ⟨-, -, -, -, -, -, -, -, -, -, -, -, -, -, h0, h1⟩ := idx_facts t
  funext y
  rw [View.read_apply]
  refine directions_block _ t.val _ (edge_block m c t) _ _ ?_ ?_
  · show win0_7.index t (0 : Fin 2) * 3 + 1 * (y 0).val = (y 0).val
    rw [h0]; omega
  · show win0_7.index t (1 : Fin 2) * 32000 + 1 * (y 1).val = t.val * 32000 + (y 1).val
    rw [h1]; omega

/-! ## The blocks cover each output array -/

theorem mem_lengths_blk (t : Fin cfg0.N) (i : S1x1600000.Idx) :
    i ∈ ((cfg0.win 5).blk t).view.set ↔ ∀ a : Fin 2, win0_5.index t a * S1x32000.size a ≤ (i a).val ∧ (i a).val < win0_5.index t a * S1x32000.size a + S1x32000.size a := by
  show i ∈ ((View.whole main_call0_v24_0).slice (win0_5.rect t)).set ↔ _
  rw [View.set_slice_whole, Rect.mem_set_unit]
  exact Iff.rfl

theorem mem_features_blk (t : Fin cfg0.N) (i : S1600000x128.Idx) :
    i ∈ ((cfg0.win 6).blk t).view.set ↔ ∀ a : Fin 2, win0_6.index t a * S32000x128.size a ≤ (i a).val ∧ (i a).val < win0_6.index t a * S32000x128.size a + S32000x128.size a := by
  show i ∈ ((View.whole main_v0_2).slice (win0_6.rect t)).set ↔ _
  rw [View.set_slice_whole, Rect.mem_set_unit]
  exact Iff.rfl

theorem mem_directions_blk (t : Fin cfg0.N) (i : S3x1600000.Idx) :
    i ∈ ((cfg0.win 7).blk t).view.set ↔ ∀ a : Fin 2, win0_7.index t a * S3x32000.size a ≤ (i a).val ∧ (i a).val < win0_7.index t a * S3x32000.size a + S3x32000.size a := by
  show i ∈ ((View.whole main_call0_v24_2).slice (win0_7.rect t)).set ↔ _
  rw [View.set_slice_whole, Rect.mem_set_unit]
  exact Iff.rfl

/-- The point whose blocks hold edge `e`: `e / 32000`. -/
theorem point_of_edge (e : ℕ) (he : e < 1600000) : ∃ t : Fin cfg0.N, t.val = e / 32000 :=
  ⟨⟨e / 32000, by rw [show cfg0.N = 50 from N_0]; omega⟩, rfl⟩

theorem cover_lengths (i : S1x1600000.Idx) :
    ∃ t : Fin cfg0.N, (cfg0.win 5).flush t = true ∧ i ∈ ((cfg0.win 5).blk t).view.set := by
  have hi0 : (i 0).val < 1 := (i 0).isLt
  have hi1 : (i 1).val < 1600000 := (i 1).isLt
  obtain ⟨t, ht⟩ := point_of_edge (i 1).val hi1
  obtain ⟨-, -, -, -, -, -, -, -, -, -, h0, h1, -⟩ := idx_facts t
  refine ⟨t, flush0_5 t, ?_⟩
  rw [mem_lengths_blk]
  intro a
  match a with
  | ⟨0, _⟩ => show win0_5.index t (0 : Fin 2) * 1 ≤ (i 0).val ∧ (i 0).val < win0_5.index t (0 : Fin 2) * 1 + 1; rw [h0]; omega
  | ⟨1, _⟩ => show win0_5.index t (1 : Fin 2) * 32000 ≤ (i 1).val ∧ (i 1).val < win0_5.index t (1 : Fin 2) * 32000 + 32000; rw [h1, ht]; omega

theorem cover_features (i : S1600000x128.Idx) :
    ∃ t : Fin cfg0.N, (cfg0.win 6).flush t = true ∧ i ∈ ((cfg0.win 6).blk t).view.set := by
  have hi0 : (i 0).val < 1600000 := (i 0).isLt
  have hi1 : (i 1).val < 128 := (i 1).isLt
  obtain ⟨t, ht⟩ := point_of_edge (i 0).val hi0
  obtain ⟨-, -, -, -, -, -, -, -, -, -, -, -, h0, h1, -⟩ := idx_facts t
  refine ⟨t, flush0_6 t, ?_⟩
  rw [mem_features_blk]
  intro a
  match a with
  | ⟨0, _⟩ => show win0_6.index t (0 : Fin 2) * 32000 ≤ (i 0).val ∧ (i 0).val < win0_6.index t (0 : Fin 2) * 32000 + 32000; rw [h0, ht]; omega
  | ⟨1, _⟩ => show win0_6.index t (1 : Fin 2) * 128 ≤ (i 1).val ∧ (i 1).val < win0_6.index t (1 : Fin 2) * 128 + 128; rw [h1]; omega

theorem cover_directions (i : S3x1600000.Idx) :
    ∃ t : Fin cfg0.N, (cfg0.win 7).flush t = true ∧ i ∈ ((cfg0.win 7).blk t).view.set := by
  have hi0 : (i 0).val < 3 := (i 0).isLt
  have hi1 : (i 1).val < 1600000 := (i 1).isLt
  obtain ⟨t, ht⟩ := point_of_edge (i 1).val hi1
  obtain ⟨-, -, -, -, -, -, -, -, -, -, -, -, -, -, h0, h1⟩ := idx_facts t
  refine ⟨t, flush0_7 t, ?_⟩
  rw [mem_directions_blk]
  intro a
  match a with
  | ⟨0, _⟩ => show win0_7.index t (0 : Fin 2) * 3 ≤ (i 0).val ∧ (i 0).val < win0_7.index t (0 : Fin 2) * 3 + 3; rw [h0]; omega
  | ⟨1, _⟩ => show win0_7.index t (1 : Fin 2) * 32000 ≤ (i 1).val ∧ (i 1).val < win0_7.index t (1 : Fin 2) * 32000 + 32000; rw [h1, ht]; omega

/-! ## The arrays after the region -/

theorem final_lengths (c : Dev nD) : (dats m 0 c).arrAt 5 cfg0.N = lengthsT (V m c main_call0_v19) :=
  (dats m 0 c).arrAt_eq_of_cover 5 _ (fun t _ => flushed_lengths m c t) cover_lengths

theorem final_features (c : Dev nD) : (dats m 0 c).arrAt 6 cfg0.N
    = featuresA (V m c main_call0_v19) (V m c main_call0_v20) (V m c main_call0_v21) (V m c main_call0_v22) (V m c main_call0_v23) :=
  (dats m 0 c).arrAt_eq_of_cover 6 _ (fun t _ => flushed_features m c t) cover_features

theorem final_directions (c : Dev nD) : (dats m 0 c).arrAt 7 cfg0.N = directionsT (V m c main_call0_v19) :=
  (dats m 0 c).arrAt_eq_of_cover 7 _ (fun t _ => flushed_directions m c t) cover_directions

end Cert.EdgeFeat.Arrays

end
-- ==== Proof.Results.lean ====
/-
  The three float results as functions of the edge vectors and the parameters.

  `EV` is the array of edge vectors, one row of three coordinates per edge; `MU`, `BE` the fifty centres and widths;
  `W` the weights, stored one row of fifty per feature; `B` the 128 bias entries. Result 1 is each edge's length,
  result 2 its 128 features, result 3 its unit direction.
-/
import proofs.«113944_j15607911153855_2_alg».proof.Proof.Spec
import Idealize.ShloMosaic.Lib.ValueIdx

noncomputable section

namespace Cert.EdgeFeat

open Idealize.ShloMosaic Idealize.ShloMosaic.ValueIdx

/-- The three coordinates of edge `e`. -/
def edge (EV : (⟨2, ![1600000, 3]⟩ : Shape).Idx → EReal) (e : Fin 1600000) : Fin 3 → EReal := fun k => EV (ix2 e k)

/-- Every edge's length. -/
def weightOut (EV : (⟨2, ![1600000, 3]⟩ : Shape).Idx → EReal) : (⟨1, ![1600000]⟩ : Shape).Idx → EReal :=
  fun i => length (edge EV ⟨(i 0).val, (i 0).isLt⟩)

/-- Every edge's features. -/
def attrOut (EV : (⟨2, ![1600000, 3]⟩ : Shape).Idx → EReal) (MU BE : (⟨1, ![50]⟩ : Shape).Idx → EReal)
    (W : (⟨2, ![128, 50]⟩ : Shape).Idx → EReal) (B : (⟨1, ![128]⟩ : Shape).Idx → EReal) : (⟨2, ![1600000, 128]⟩ : Shape).Idx → EReal :=
  fun i => feature (fun k => MU (ix1 k)) (fun k => BE (ix1 k)) (fun k h => W (ix2 h k)) (fun h => B (ix1 h))
    (length (edge EV ⟨(i 0).val, (i 0).isLt⟩)) ⟨(i 1).val, (i 1).isLt⟩

/-- Every edge's unit direction. -/
def dirOut (EV : (⟨2, ![1600000, 3]⟩ : Shape).Idx → EReal) : (⟨2, ![1600000, 3]⟩ : Shape).Idx → EReal :=
  fun i => direction (edge EV ⟨(i 0).val, (i 0).isLt⟩) ⟨(i 1).val, (i 1).isLt⟩

end Cert.EdgeFeat

end
-- ==== Proof.KernelLayout.lean ====
/-
  The layouts at the kernel's boundary.

  The kernel is handed the edge vectors transposed (three rows), the centres, widths and bias as one-row arrays, and
  the weights transposed (fifty rows of 128); it hands back the lengths as one row and the directions as three rows,
  which the surrounding program reshapes to a vector and transposes back. None of this moves a number: read at an
  index, the reshaped and transposed outputs are the results of the previous module.
-/
import proofs.«113944_j15607911153855_2_alg».proof.Proof.KernelBlocks
import proofs.«113944_j15607911153855_2_alg».proof.Proof.Results
import Idealize.ShloMosaic.Lib.ValueLayout

noncomputable section

namespace Cert.EdgeFeat.Arrays

open Idealize.ShloMosaic Idealize.ShloMosaic.ValueIdx Cert.KernelIdeal Cert.EdgeFeat

/-- An edge's column in the transposed array is its row in the array. -/
theorem edgeRow_transpose (EV : S1600000x3.Idx → EReal) (ht : S1600000x3.Transposes [1, 0] S3x1600000) (e : Fin 1600000) :
    edgeRow (transpose S3x1600000 [1, 0] EV ht) e = edge EV e :=
  funext fun k => transpose_ix2_apply EV ht k e

/-- The length row, reshaped to a vector, is every edge's length. -/
theorem lengths_out (EV : S1600000x3.Idx → EReal) (ht : S1600000x3.Transposes [1, 0] S3x1600000)
    (hc : S1x1600000.ShapeCasts S1600000) :
    shapeCast S1600000 (lengthsT (transpose S3x1600000 [1, 0] EV ht)) hc = weightOut EV := by
  funext i
  obtain ⟨e, rfl⟩ : ∃ e : Fin 1600000, i = ix1 e := ⟨i 0, eq_ix1 i⟩
  rw [shapeCast_1a_a_apply]
  unfold lengthsT weightOut
  rw [edgeRow_transpose]

/-- The feature array over the boundary layouts is every edge's features. -/
theorem features_out (EV : S1600000x3.Idx → EReal) (MU BE : S50.Idx → EReal) (W : S128x50.Idx → EReal) (B : S128.Idx → EReal)
    (ht : S1600000x3.Transposes [1, 0] S3x1600000) (hmu : S50.ShapeCasts S1x50) (hw : S128x50.Transposes [1, 0] S50x128)
    (hb : S128.ShapeCasts S1x128) :
    featuresA (transpose S3x1600000 [1, 0] EV ht) (shapeCast S1x50 MU hmu) (shapeCast S1x50 BE hmu)
        (transpose S50x128 [1, 0] W hw) (shapeCast S1x128 B hb)
      = attrOut EV MU BE W B := by
  funext i
  unfold featuresA attrOut
  have eW : (fun (k : Fin 50) (h : Fin 128) => transpose S50x128 [1, 0] W hw (ix2 k h)) = fun k h => W (ix2 h k) :=
    funext fun k => funext fun h => transpose_ix2_apply W hw k h
  simp only [shapeCast_a_1a_apply]
  rw [eW, edgeRow_transpose]

/-- The direction rows, transposed back, are every edge's unit direction. -/
theorem directions_out (EV : S1600000x3.Idx → EReal) (ht : S1600000x3.Transposes [1, 0] S3x1600000)
    (ht' : S3x1600000.Transposes [1, 0] S1600000x3) :
    transpose S1600000x3 [1, 0] (directionsT (transpose S3x1600000 [1, 0] EV ht)) ht' = dirOut EV := by
  funext i
  obtain ⟨e, k, rfl⟩ : ∃ (e : Fin 1600000) (k : Fin 3), i = ix2 e k := ⟨i 0, i 1, eq_ix2 i⟩
  rw [transpose_ix2_apply]
  unfold directionsT dirOut
  rw [edgeRow_transpose]

end Cert.EdgeFeat.Arrays

end
-- ==== Proof.KernelEntry.lean ====
/-
  What the region is handed.

  Before the region the program slices the two index rows, wraps negative indices, gathers the end points' positions and
  subtracts them (the edge vectors), then hands the region the edge vectors transposed, the centres, widths and bias as
  one-row arrays and the weights transposed. Each array the region reads is stated here as that layout operation of
  what it was made from.
-/
import proofs.«113944_j15607911153855_2_alg».proof.Proof.Gen.KernelIdeal.Frame
import Idealize.ShloMosaic.Lib.StableHlo.Run
import Idealize.ShloMosaic.Lib.ValueIdx

noncomputable section

namespace Cert.EdgeFeat.Entry

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The edge array the region reads is the transposed edge vectors. -/
theorem entry_edges (c : Dev nD) :
    (V m c main_call0_v19 : S3x1600000.Idx → EReal)
      = transpose S3x1600000 [1, 0] (V m c main_call0_v18 : S1600000x3.Idx → EReal) transposes_S1600000x3_S3x1600000_1_0 := by
  show StableHlo.after hostOps0 (fun b => m (c, b)) (Proc.devRef .tc main_call0_v19)
    = transpose S3x1600000 [1, 0] (StableHlo.after hostOps0 (fun b => m (c, b)) (Proc.devRef .tc main_call0_v18)) _
  after_results_simp
  rfl

/-- The centres as a one-row array. -/
theorem entry_centres (c : Dev nD) :
    (V m c main_call0_v20 : S1x50.Idx → EReal)
      = shapeCast S1x50 (m ((c : Thread nD τ).loc main_arg2) : S50.Idx → EReal) shapeCasts_S50_S1x50 := by
  show StableHlo.after hostOps0 (fun b => m (c, b)) (Proc.devRef .tc main_call0_v20) = _
  after_results
  rfl

/-- The widths as a one-row array. -/
theorem entry_widths (c : Dev nD) :
    (V m c main_call0_v21 : S1x50.Idx → EReal)
      = shapeCast S1x50 (m ((c : Thread nD τ).loc main_arg3) : S50.Idx → EReal) shapeCasts_S50_S1x50 := by
  show StableHlo.after hostOps0 (fun b => m (c, b)) (Proc.devRef .tc main_call0_v21) = _
  after_results
  rfl

/-- The weights transposed. -/
theorem entry_weights (c : Dev nD) :
    (V m c main_call0_v22 : S50x128.Idx → EReal)
      = transpose S50x128 [1, 0] (m ((c : Thread nD τ).loc main_arg4) : S128x50.Idx → EReal) transposes_S128x50_S50x128_1_0 := by
  show StableHlo.after hostOps0 (fun b => m (c, b)) (Proc.devRef .tc main_call0_v22) = _
  after_results
  rfl

/-- The bias as a one-row array. -/
theorem entry_bias (c : Dev nD) :
    (V m c main_call0_v23 : S1x128.Idx → EReal)
      = shapeCast S1x128 (m ((c : Thread nD τ).loc main_arg5) : S128.Idx → EReal) shapeCasts_S128_S1x128 := by
  show StableHlo.after hostOps0 (fun b => m (c, b)) (Proc.devRef .tc main_call0_v23) = _
  after_results
  rfl

end Cert.EdgeFeat.Entry

end
-- ==== Proof.KernelRun.lean ====
/-
  The kernel program's run, read.

  After the region the program reshapes the one-row length array to a vector and transposes the three-row direction
  array back to one row per edge; the feature array is a result as the region leaves it. With the arrays the region
  leaves (every block in place) and the layouts at its boundary undone, the program ends with: the index array
  untouched, every edge's length, every edge's features, every edge's unit direction — functions of the edge vectors
  the region was handed and of the four parameter arrays — and its six arguments unchanged.
-/
import proofs.«113944_j15607911153855_2_alg».proof.Proof.Gen.KernelIdeal.Frame
import proofs.«113944_j15607911153855_2_alg».proof.Proof.KernelArrays
import proofs.«113944_j15607911153855_2_alg».proof.Proof.KernelLayout
import proofs.«113944_j15607911153855_2_alg».proof.Proof.KernelEntry
import Idealize.ShloMosaic.Lib.StableHlo.Run
import Idealize.ShloMosaic.Lib.Pipeline.FrameSuffix

noncomputable section

namespace Cert.EdgeFeat.Run

open Idealize.ShloMosaic Idealize.ShloMosaic.TcCoe Idealize.ShloMosaic.ValueIdx Idealize.SL.Sem
open Idealize.ShloMosaic.Pipeline (Dat)
open Cert.KernelIdeal Cert.KernelIdeal.Gen Cert.EdgeFeat Cert.EdgeFeat.Arrays Cert.EdgeFeat.Entry

variable (m : (ℓ : Loc nD τ sig) → Buf (Elt Ideal) ℓ) (ρ : Dev nD → PrngReg)

/-! ## After the region -/

/-- The returned lengths: the region's length row reshaped to a vector. -/
theorem tail_lengths (c : Dev nD) :
    Pipeline.afterTail₀ cfgs (dats m) 0 (V0 m) [hostOps1] c main_v0_1
      = shapeCast S1600000 ((dats m 0 c).arrAt 5 cfg0.N : S1x1600000.Idx → EReal) shapeCasts_S1x1600000_S1600000 := by
  unfold Pipeline.afterTail₀
  show StableHlo.after hostOps1 _ (Proc.devRef .tc main_v0_1) = _
  after_results
  exact congrArg (fun X : S1x1600000.Idx → EReal => shapeCast S1600000 X shapeCasts_S1x1600000_S1600000)
    (Pipeline.withArrays_arr spec0 launch0.win.arr_inj c _ _ 5)

/-- The returned directions: the region's direction rows transposed back. -/
theorem tail_directions (c : Dev nD) :
    Pipeline.afterTail₀ cfgs (dats m) 0 (V0 m) [hostOps1] c main_v0_3
      = transpose S1600000x3 [1, 0] ((dats m 0 c).arrAt 7 cfg0.N : S3x1600000.Idx → EReal) transposes_S3x1600000_S1600000x3_1_0 := by
  unfold Pipeline.afterTail₀
  show StableHlo.after hostOps1 _ (Proc.devRef .tc main_v0_3) = _
  after_results
  refine congrArg (fun X : S3x1600000.Idx → EReal => transpose S1600000x3 [1, 0] X transposes_S3x1600000_S1600000x3_1_0) ?_
  exact (cast_eq _ _).trans (Pipeline.withArrays_arr spec0 launch0.win.arr_inj c _ _ 7)

/-! ## The three float results -/

theorem result_lengths (c : Dev nD) :
    Pipeline.afterTail₀ cfgs (dats m) 0 (V0 m) [hostOps1] c main_v0_1 = weightOut (V m c main_call0_v18) := by
  rw [tail_lengths, final_lengths, entry_edges, lengths_out]

theorem result_features (c : Dev nD) :
    (dats m 0 c).arrAt 6 cfg0.N
      = attrOut (V m c main_call0_v18) (m ((c : Thread nD τ).loc main_arg2)) (m ((c : Thread nD τ).loc main_arg3))
          (m ((c : Thread nD τ).loc main_arg4)) (m ((c : Thread nD τ).loc main_arg5)) := by
  rw [final_features, entry_edges, entry_centres, entry_widths, entry_weights, entry_bias, features_out]

theorem result_directions (c : Dev nD) :
    Pipeline.afterTail₀ cfgs (dats m) 0 (V0 m) [hostOps1] c main_v0_3 = dirOut (V m c main_call0_v18) := by
  rw [tail_directions, final_directions, entry_edges, directions_out]

/-! ## The run -/

/-- Every weakly fair execution of the kernel program terminates with its four results at these functions and its
    arguments unchanged. -/
theorem run : θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v0_1) = weightOut (V m c main_call0_v18)
      ∧ r.2.mem ((c.tc : Thread nD τ).loc main_v0_2)
          = attrOut (V m c main_call0_v18) (m ((c : Thread nD τ).loc main_arg2)) (m ((c : Thread nD τ).loc main_arg3))
              (m ((c : Thread nD τ).loc main_arg4)) (m ((c : Thread nD τ).loc main_arg5))
      ∧ r.2.mem ((c.tc : Thread nD τ).loc main_v0_3) = dirOut (V m c main_call0_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_arg1 (Pipeline.mem_restRefs_of main_arg1 (by decide) (by decide))).trans (W_main_arg1 m (dats m) c),
     ((h c).2 main_v0_1 (Pipeline.mem_restRefs_of main_v0_1 (by decide) (by decide))).trans (result_lengths m c),
     ((h c).1 6).trans (result_features m c),
     ((h c).2 main_v0_3 (Pipeline.mem_restRefs_of main_v0_3 (by decide) (by decide))).trans (result_directions m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.EdgeFeat.Run

end
-- ==== Proof.RefValue.lean ====
/-
  The reference program computes the same three functions.

  Read one operation at a time: the sum of squares of an edge's coordinates (computed twice, once for the returned
  lengths and once under the direction's quotient) starts from the zero word, which denotes zero; the window, the
  decay and the basis values are the operations of the specification applied to the edge's length, each broadcast
  reading the one entry it repeats; the matrix product against the transposed weights is the sum over the fifty
  basis values; the direction is the coordinate over the length.
-/
import proofs.«113944_j15607911153855_2_alg».proof.Proof.Gen.ReferenceIdeal.Read
import proofs.«113944_j15607911153855_2_alg».proof.Proof.Results
import Idealize.ShloMosaic.Lib.ValueIdx
import Idealize.ShloMosaic.PureOps.Ideal.Laws

open scoped BigOperators

noncomputable section

namespace Cert.EdgeFeat.Ref

open Idealize.ShloMosaic Idealize.ShloMosaic.ValueIdx Cert.ReferenceIdeal Cert.ReferenceIdeal.Read Cert.EdgeFeat

variable (x0 : (⟨S100000x3, .f32⟩ : BufTy).Contents (Elt Ideal)) (x1 : (⟨S2x1600000, .i32⟩ : BufTy).Contents (Elt Ideal))
  (x2 x3 : (⟨S50, .f32⟩ : BufTy).Contents (Elt Ideal)) (x4 : (⟨S128x50, .f32⟩ : BufTy).Contents (Elt Ideal))
  (x5 : (⟨S128, .f32⟩ : BufTy).Contents (Elt Ideal))

/-- The edge vectors: the difference of the gathered end points. -/
abbrev edges : (⟨2, ![1600000, 3]⟩ : Shape).Idx → EReal := val_main_v18 (F := Ideal) x0 x1

/-- The sum of squares of edge `e`'s coordinates (the copy under the returned lengths). -/
theorem sumsq_a (e : Fin 1600000) :
    val_main_call0_v1 (F := Ideal) x0 x1 (ix1 e) = ∑ k : Fin 3, edge (edges x0 x1) e k * edge (edges x0 x1) e k := by
  rw [val_main_call0_v1_apply, val_main_call0_cst_apply]
  refine (congrArg (· + _) Ideal.ofBits_zero_f32).trans ((zero_add _).trans ?_)
  refine Finset.sum_congr rfl fun k _ => ?_
  have e1 : idx_main_call0_v1 (ix1 e) k = ix2 e k :=
    funext fun a => Fin.ext (by match a with | ⟨0, _⟩ => rfl | ⟨1, _⟩ => rfl)
  rw [val_main_call0_v0_apply, e1]
  rfl

/-- The same sum (the copy under the direction's quotient). -/
theorem sumsq_b (e : Fin 1600000) :
    val_main_call1_v1 (F := Ideal) x0 x1 (ix1 e) = ∑ k : Fin 3, edge (edges x0 x1) e k * edge (edges x0 x1) e k := by
  rw [val_main_call1_v1_apply, val_main_call1_cst_apply]
  refine (congrArg (· + _) Ideal.ofBits_zero_f32).trans ((zero_add _).trans ?_)
  refine Finset.sum_congr rfl fun k _ => ?_
  have e1 : idx_main_call1_v1 (ix1 e) k = ix2 e k :=
    funext fun a => Fin.ext (by match a with | ⟨0, _⟩ => rfl | ⟨1, _⟩ => rfl)
  rw [val_main_call1_v0_apply, e1]
  rfl

/-- The returned length of edge `e`. -/
theorem length_a (e : Fin 1600000) : val_main_v19 (F := Ideal) x0 x1 (ix1 e) = length (edge (edges x0 x1) e) := by
  rw [val_main_v19_apply, sumsq_a]
  rfl

/-- The length column. -/
theorem length_col (e : Fin 1600000) (u : Fin 1) : val_main_v20 (F := Ideal) x0 x1 (ix2 e u) = length (edge (edges x0 x1) e) := by
  have e1 : idx_main_v20 (ix2 e u) = ix1 e := funext fun a => Fin.ext (by match a with | ⟨0, _⟩ => rfl)
  rw [val_main_v20_apply, e1, length_a]

/-- The length under the direction's quotient. -/
theorem length_b (e : Fin 1600000) (u : Fin 1) : val_main_v51 (F := Ideal) x0 x1 (ix2 e u) = length (edge (edges x0 x1) e) := by
  have e1 : idx_main_call1_v2 (ix2 e u) = ix1 e := funext fun a => Fin.ext (by match a with | ⟨0, _⟩ => rfl)
  rw [val_main_v51_apply, val_main_call1_v2_apply, e1, sumsq_b]
  rfl

/-- The cosine window of edge `e`. -/
theorem window_apply (e : Fin 1600000) (u : Fin 1) :
    val_main_v33 (F := Ideal) x0 x1 (ix2 e u) = window (length (edge (edges x0 x1) e)) := by
  rw [val_main_v33_apply, val_main_v29_apply, val_main_v28_apply, val_main_cst_5_apply, val_main_v27_apply, val_main_v25_apply,
    val_main_v24_apply, val_main_v22_apply, val_main_v21_apply, val_main_cst_apply, val_main_v23_apply, val_main_cst_3_apply,
    val_main_v26_apply, val_main_cst_4_apply, val_main_v32_apply, val_main_v31_apply, val_main_v30_apply, val_main_cst_6_apply, length_col]
  rfl

/-- The decay of edge `e`'s length. -/
theorem decay_apply (e : Fin 1600000) (u : Fin 1) :
    val_main_v39 (F := Ideal) x0 x1 (ix2 e u) = decay (length (edge (edges x0 x1) e)) := by
  rw [val_main_v39_apply, val_main_v38_apply, val_main_v37_apply, val_main_cst_8_apply, val_main_v36_apply, val_main_v35_apply,
    val_main_cst_7_apply, length_col]
  rfl

/-- The `k`-th basis value of edge `e`. -/
theorem basis_apply (e : Fin 1600000) (k : Fin 50) :
    val_main_v50 (F := Ideal) x0 x1 x2 x3 (ix2 e k)
      = basis (fun k => x2 (ix1 k)) (fun k => x3 (ix1 k)) (length (edge (edges x0 x1) e)) k := by
  have i49 : idx_main_v49 (ix2 e k) = ix2 e (0 : Fin 1) :=
    funext fun a => Fin.ext (by match a with | ⟨0, _⟩ => rfl | ⟨1, _⟩ => rfl)
  have i41 : idx_main_v41 (ix2 e k) = ix2 e (0 : Fin 1) :=
    funext fun a => Fin.ext (by match a with | ⟨0, _⟩ => rfl | ⟨1, _⟩ => rfl)
  have i42 : idx_main_v40 (idx_main_v42 (ix2 e k)) = ix1 k := funext fun a => Fin.ext (by match a with | ⟨0, _⟩ => rfl)
  have i46 : idx_main_v45 (idx_main_v46 (ix2 e k)) = ix1 k := funext fun a => Fin.ext (by match a with | ⟨0, _⟩ => rfl)
  rw [val_main_v50_apply, val_main_v49_apply, i49, window_apply, val_main_v48_apply, val_main_v47_apply, val_main_v46_apply,
    val_main_v45_apply, i46, val_main_v34_apply, val_main_v44_apply, val_main_v43_apply, val_main_v41_apply, i41, decay_apply,
    val_main_v42_apply, val_main_v40_apply, i42]
  rfl

/-- Result 1: every edge's length. -/
theorem weight_eq : val_main_v19 (F := Ideal) x0 x1 = weightOut (edges x0 x1) := by
  funext i
  obtain ⟨e, rfl⟩ : ∃ e : Fin 1600000, i = ix1 e := ⟨i 0, eq_ix1 i⟩
  rw [length_a]
  rfl

/-- Result 2: every edge's features. -/
theorem attr_eq : val_main_v58 (F := Ideal) x0 x1 x2 x3 x4 x5 = attrOut (edges x0 x1) x2 x3 x4 x5 := by
  funext i
  obtain ⟨e, h, rfl⟩ : ∃ (e : Fin 1600000) (h : Fin 128), i = ix2 e h := ⟨i 0, i 1, eq_ix2 i⟩
  have i57 : idx_main_v56 (idx_main_v57 (ix2 e h)) = ix1 h := funext fun a => Fin.ext (by match a with | ⟨0, _⟩ => rfl)
  rw [val_main_v58_apply, val_main_v55_apply, val_main_v57_apply, val_main_v56_apply, i57, Ideal.addf_def]
  unfold attrOut feature
  refine congrArg (· + _) (Finset.sum_congr rfl fun k _ => ?_)
  have il : lidx_main_v55 (ix2 e h) k = ix2 e k :=
    funext fun a => Fin.ext (by match a with | ⟨0, _⟩ => rfl | ⟨1, _⟩ => rfl)
  have ir : idx_main_v54 (ridx_main_v55 (ix2 e h) k) = ix2 h k :=
    funext fun a => Fin.ext (by match a with | ⟨0, _⟩ => rfl | ⟨1, _⟩ => rfl)
  rw [il, basis_apply, val_main_v54_apply, ir]

/-- Result 3: every edge's unit direction. -/
theorem dir_eq : val_main_v53 (F := Ideal) x0 x1 = dirOut (edges x0 x1) := by
  funext i
  obtain ⟨e, k, rfl⟩ : ∃ (e : Fin 1600000) (k : Fin 3), i = ix2 e k := ⟨i 0, i 1, eq_ix2 i⟩
  have i52 : idx_main_v52 (ix2 e k) = ix2 e (0 : Fin 1) :=
    funext fun a => Fin.ext (by match a with | ⟨0, _⟩ => rfl | ⟨1, _⟩ => rfl)
  rw [val_main_v53_apply, val_main_v52_apply, i52, length_b]
  rfl

end Cert.EdgeFeat.Ref

end
-- ==== Proof.EdgesAgree.lean ====
/-
  The two programs compute the same edge vectors.

  Both programs start with the same operations on the positions and the index array: the two index rows sliced out and
  flattened, a negative index moved up by the number of nodes, the end points' positions gathered, and the second end
  point subtracted from the first. Operation for operation the kernel program's chain is the reference's, so the edge
  vectors the region is handed (before their transposition) are the reference's edge vectors of the same arguments.
-/
import proofs.«113944_j15607911153855_2_alg».proof.Proof.Gen.KernelIdeal.Frame
import proofs.«113944_j15607911153855_2_alg».proof.Proof.Gen.ReferenceIdeal.Read
import Idealize.ShloMosaic.Lib.StableHlo.Run

noncomputable section

namespace Cert.EdgeFeat.Entry

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- The edge vectors the kernel program computes are the reference's stage of the same name. -/
theorem entry_edgeVec (c : Dev nD) :
    (V m c main_call0_v18 : S1600000x3.Idx → EReal)
      = Cert.ReferenceIdeal.Read.val_main_v18 (F := Ideal) (m ((c : Thread nD τ).loc main_arg0)) (m ((c : Thread nD τ).loc main_arg1)) := by
  show StableHlo.after hostOps0 (fun b => m (c, b)) (Proc.devRef .tc main_call0_v18) = _
  after_results_simp
  rfl

end Cert.EdgeFeat.Entry

end
-- ==== Proof.lean ====
/-
  Edge features of a graph of points: a tiled kernel against its plain reference, on the extended reals.

  From the positions of 100 000 nodes and 1 600 000 edges (pairs of node indices), both programs return the index
  array, every edge's length, 128 features per edge (an affine image of fifty windowed radial basis values of the
  length) and every edge's unit direction. The kernel program computes the edge vectors as the reference does, then works on
  them in fifty blocks of 32 000 edges, through transposed and one-row layouts at the block boundary; the reference
  works on whole arrays.

  * The three frames: the two kernel programs run, fault-free, with their arguments unchanged (their generated frame
    runs); the reference's frame is its generated run with the results dropped.
  * The idealization rewrote nothing, so its statement is trivial.
  * Equality of results at the ideal values: the kernel program's run ends at the three functions of the edge vectors
    and the parameters (every block's entries depend on the edge's own coordinates only, the blocks tile the arrays, and
    the boundary layouts move no number); the reference's run ends at the same three functions, read one operation at
    a time; the edge vectors themselves are the same term of the arguments on both sides. The one algebraic step is
    the grouping of the basis exponent, `((0 - β)·δ)·δ = (-β)·(δ·δ)`, which holds for all extended reals: the
    precondition is never opened.
-/
import proofs.«113944_j15607911153855_2_alg».proof.Defs
import proofs.«113944_j15607911153855_2_alg».proof.Proof.Gen.Kernel
import proofs.«113944_j15607911153855_2_alg».proof.Proof.Gen.Kernel.Frame
import proofs.«113944_j15607911153855_2_alg».proof.Proof.Gen.KernelIdeal
import proofs.«113944_j15607911153855_2_alg».proof.Proof.Gen.KernelIdeal.Frame
import proofs.«113944_j15607911153855_2_alg».proof.Proof.Gen.ReferenceIdeal
import proofs.«113944_j15607911153855_2_alg».proof.Proof.Gen.Pre_finite_inputs
import proofs.«113944_j15607911153855_2_alg».proof.Proof.Gen.ReferenceIdeal.Run
import proofs.«113944_j15607911153855_2_alg».proof.Proof.Gen.ReferenceIdeal.Read
import proofs.«113944_j15607911153855_2_alg».proof.Proof.KernelRun
import proofs.«113944_j15607911153855_2_alg».proof.Proof.RefValue
import proofs.«113944_j15607911153855_2_alg».proof.Proof.EdgesAgree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2.2) (Cert.ReferenceIdeal.Value.run (F := Ideal) m ρ)

/-- Both programs end with the index array, every edge's length, features and unit direction: the kernel program by
    its blocks, the reference operation by operation, over the same edge vectors. -/
theorem algebraic : Cert.algebraic_KernelIdeal_ReferenceIdeal := by
  intro m ρ m' ρ' _ hagree
  refine ⟨_, _, _, _, Cert.EdgeFeat.Run.run m ρ, ?_⟩
  refine (θ_run Cert.ReferenceIdeal.defs _ _).mono (fun _ h c => ?_) (Cert.ReferenceIdeal.Value.run (F := Ideal) m' ρ')
  obtain ⟨h0, h1, h2, h3, hrest⟩ := h c
  obtain ⟨a0, a1, a2, a3, a4, a5⟩ := hagree c
  refine ⟨h0.trans a1, h1.trans ((Cert.ReferenceIdeal.Read.val_main_v19_eq _ _).trans ?_),
    h2.trans ((Cert.ReferenceIdeal.Read.val_main_v58_eq m' c).trans ?_),
    h3.trans ((Cert.ReferenceIdeal.Read.val_main_v53_eq m' c).trans ?_), hrest⟩
  · rw [Cert.EdgeFeat.Ref.weight_eq, a0, a1, Cert.EdgeFeat.Entry.entry_edgeVec]
  · rw [Cert.EdgeFeat.Ref.attr_eq, a0, a1, a2, a3, a4, a5, Cert.EdgeFeat.Entry.entry_edgeVec]
  · rw [Cert.EdgeFeat.Ref.dir_eq, a0, a1, Cert.EdgeFeat.Entry.entry_edgeVec]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
